-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v13) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x4096 : Shape := ⟨2, ![1024, 4096]⟩
abbrev S4096 : Shape := ⟨1, ![4096]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S4x2048x1024 .f32) (main_arg1 : FVec F S4x2048x1024 .f32) (main_arg2 : FVec F S1024x4096 .f32) (main_arg3 : FVec F S4096 .f32) (main_arg4 : FVec F S1024 .f32) (main_arg5 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S4x2048x1024 : Shape := ⟨3, ![4, 2048, 1024]⟩
abbrev S1024x4096 : Shape := ⟨2, ![1024, 4096]⟩
abbrev S4096 : Shape := ⟨1, ![4096]⟩
abbrev S1024 : Shape := ⟨1, ![1024]⟩
abbrev S8192x1024 : Shape := ⟨2, ![8192, 1024]⟩
abbrev S1x1024 : Shape := ⟨2, ![1, 1024]⟩
abbrev S1x4096 : Shape := ⟨2, ![1, 4096]⟩
abbrev S8192x1 : Shape := ⟨2, ![8192, 1]⟩
abbrev S8192x4096 : Shape := ⟨2, ![8192, 4096]⟩
abbrev S4x2048 : Shape := ⟨2, ![4, 2048]⟩
abbrev S4x2048x4096 : Shape := ⟨3, ![4, 2048, 4096]⟩
abbrev S256x1024 : Shape := ⟨2, ![256, 1024]⟩
abbrev S256x1 : Shape := ⟨2, ![256, 1]⟩
abbrev S256x4096 : Shape := ⟨2, ![256, 4096]⟩
abbrev S256 : Shape := ⟨1, ![256]⟩

abbrev nBuf : Space → Nat
  | .hbm => 20
  | .vmem => 16
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x4096, .f32⟩
  | .hbm, ⟨3, _⟩ => ⟨S4096, .f32⟩
  | .hbm, ⟨4, _⟩ => ⟨S1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S1x4096, .f32⟩
  | .hbm, ⟨11, _⟩ => ⟨S1024x4096, .bf16⟩
  | .hbm, ⟨12, _⟩ => ⟨S8192x1024, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S4x2048x1024, .f32⟩
  | .hbm, ⟨17, _⟩ => ⟨S4x2048, .f32⟩
  | .hbm, ⟨18, _⟩ => ⟨S4x2048, .f32⟩
  | .hbm, ⟨19, _⟩ => ⟨S4x2048x4096, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x4096, .bf16⟩
  | .local _ .vmem, ⟨5, _⟩ => ⟨S1x4096, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1, .f32⟩
  | .local _ .vmem, ⟨11, _⟩ => ⟨S256x1, .f32⟩
  | .local _ .vmem, ⟨12, _⟩ => ⟨S256x1, .f32⟩
  | .local _ .vmem, ⟨13, _⟩ => ⟨S256x1, .f32⟩
  | .local _ .vmem, ⟨14, _⟩ => ⟨S256x4096, .f32⟩
  | .local _ .vmem, ⟨15, _⟩ => ⟨S256x4096, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6_0 : Ref sig .tc := ⟨.hbm, 12, rfl⟩
abbrev main_call0_v6_1 : Ref sig .tc := ⟨.hbm, 13, rfl⟩
abbrev main_call0_v6_2 : Ref sig .tc := ⟨.hbm, 14, rfl⟩
abbrev main_call0_v6_3 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S4x2048x1024_S8192x1024 : S4x2048x1024.ShapeCasts S8192x1024
  shapeCasts_S1024_S1x1024 : S1024.ShapeCasts S1x1024
  shapeCasts_S4096_S1x4096 : S4096.ShapeCasts S1x4096
  bitsLt_bf16_f32 : FTy.bits .bf16 < FTy.bits .f32
  shapeCasts_S8192x1024_S4x2048x1024 : S8192x1024.ShapeCasts S4x2048x1024
  shapeCasts_S8192x1_S4x2048 : S8192x1.ShapeCasts S4x2048
  shapeCasts_S8192x4096_S4x2048x4096 : S8192x4096.ShapeCasts S4x2048x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  broadcasts_S256x1_S256x1024 : S256x1.Broadcasts S256x1024
  inb_S256x1_S256x1_0_0 : ∀ a, (![0, 0] : Fin 2 → Nat) a + S256x1.size a ≤ S256x1.size a
  h_S256x1 : 0 < S256x1.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S1024x4096.size a
  hwx0_2 : ∀ i : grid0.Coords, EltTy.bits .bf16 = 32 ∨ (Rect.block (s := S1024x4096) S1024x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S8192x1.size a
  hwx0_7 : ∀ i : grid0.Coords, EltTy.bits .f32 = 32 ∨ (Rect.block (s := S8192x1) S256x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1.size a ≤ S8192x1.size a
  hwx0_8 : ∀ i : grid0.Coords, EltTy.bits .f32 = 32 ∨ (Rect.block (s := S8192x1) S256x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x4096.size a ≤ S8192x4096.size a
  hwx0_9 : ∀ i : grid0.Coords, EltTy.bits .f32 = 32 ∨ (Rect.block (s := S8192x4096) S256x4096.size (cc0_transform_9 i) (hinb0_9 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_call0_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S1024x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v3) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v6_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_call0_v6_1) S256x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_call0_v6_2) S256x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_call0_v6_3) S256x4096.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x4096 : Shape := ⟨2, ![1024, 4096]⟩
abbrev S4096 : Shape := ⟨1, ![4096]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x4096 : Shape := ⟨3, ![4, 2048, 4096]⟩
abbrev S1x1x4096 : Shape := ⟨3, ![1, 1, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S1024x4096, .f32⟩
  | .hbm, ⟨3, _⟩ => ⟨S4096, .f32⟩
  | .hbm, ⟨4, _⟩ => ⟨S1024, .f32⟩
  | .hbm, ⟨5, _⟩ => ⟨S1024, .f32⟩
  | .hbm, ⟨6, _⟩ => ⟨S4x2048x1024, .f32⟩
  | .hbm, ⟨7, _⟩ => ⟨S_, .f32⟩
  | .hbm, ⟨8, _⟩ => ⟨S4x2048, .f32⟩
  | .hbm, ⟨9, _⟩ => ⟨S_, .f32⟩
  | .hbm, ⟨10, _⟩ => ⟨S4x2048, .f32⟩
  | .hbm, ⟨11, _⟩ => ⟨S4x2048, .f32⟩
  | .hbm, ⟨12, _⟩ => ⟨S4x2048x1, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S_, .f32⟩
  | .hbm, ⟨17, _⟩ => ⟨S4x2048, .f32⟩
  | .hbm, ⟨18, _⟩ => ⟨S_, .f32⟩
  | .hbm, ⟨19, _⟩ => ⟨S4x2048, .f32⟩
  | .hbm, ⟨20, _⟩ => ⟨S4x2048, .f32⟩
  | .hbm, ⟨21, _⟩ => ⟨S_, .f32⟩
  | .hbm, ⟨22, _⟩ => ⟨S4x2048, .f32⟩
  | .hbm, ⟨23, _⟩ => ⟨S4x2048, .f32⟩
  | .hbm, ⟨24, _⟩ => ⟨S4x2048, .f32⟩
  | .hbm, ⟨25, _⟩ => ⟨S4x2048x1, .f32⟩
  | .hbm, ⟨26, _⟩ => ⟨S4x2048x1024, .f32⟩
  | .hbm, ⟨27, _⟩ => ⟨S4x2048x1024, .f32⟩
  | .hbm, ⟨28, _⟩ => ⟨S4x2048x1, .f32⟩
  | .hbm, ⟨29, _⟩ => ⟨S4x2048x1024, .f32⟩
  | .hbm, ⟨30, _⟩ => ⟨S4x2048x1024, .f32⟩
  | .hbm, ⟨31, _⟩ => ⟨S1x1x1024, .f32⟩
  | .hbm, ⟨32, _⟩ => ⟨S4x2048x1024, .f32⟩
  | .hbm, ⟨33, _⟩ => ⟨S4x2048x1024, .f32⟩
  | .hbm, ⟨34, _⟩ => ⟨S1x1x1024, .f32⟩
  | .hbm, ⟨35, _⟩ => ⟨S4x2048x1024, .f32⟩
  | .hbm, ⟨36, _⟩ => ⟨S4x2048x1024, .f32⟩
  | .hbm, ⟨37, _⟩ => ⟨S4x2048x4096, .f32⟩
  | .hbm, ⟨38, _⟩ => ⟨S1x1x4096, .f32⟩
  | .hbm, ⟨39, _⟩ => ⟨S4x2048x4096, .f32⟩
  | .hbm, ⟨40, _⟩ => ⟨S4x2048x4096, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  reducesTo_S4x2048x1024_S4x2048_d2 : S4x2048x1024.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x1024_0_1_2 : S4x2048x1.BroadcastsInDim S4x2048x1024 (![0, 1, 2] : Fin 3 → Fin S4x2048x1024.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x1024_S1024x4096_S4x2048x4096_2_0_01_1_n_n_wf : DotDims.WF S4x2048x1024 S1024x4096 S4x2048x4096 [2] [0] [0, 1] [1] [] []

variable [Facts₀]

def dot_S4x2048x1024_S1024x4096_S4x2048x4096_2_0_01_1_n_n : DotDims S4x2048x1024 S1024x4096 S4x2048x4096 where
  lhsContracting := [2]
  rhsContracting := [0]
  lhsNonContracting := [0, 1]
  rhsNonContracting := [1]
  lhsBatch := []
  rhsBatch := []
  wf := dot_S4x2048x1024_S1024x4096_S4x2048x4096_2_0_01_1_n_n_wf

class Facts : Prop extends Facts₀ where

variable [Facts]
-- ==== Proof.Spec.lean ====
/-
  The mathematics both programs compute, stated once over the extended reals.

  For one row s = (s_0 … s_1023) (a row of x1 + x2):

      mean s   = (Σ_n s_n) / 1024
      cen s n  = s_n − mean s
      rstd s   = rsqrt ((Σ_n (cen s n)²) / 1024 + ε)
      normed s g β n = cen s n · rstd s · g_n + β_n                (layer normalisation with scale g and shift β)
      dense s g β w bias q = (Σ_k normed s g β k · w_{k,q}) + bias_q   (the row times the weight matrix, plus the bias)

  with 1024 and ε the two float literals both programs use (kept as their words: the same word on both sides is never
  evaluated).  Every operation is the extended reals' own, in this order and this grouping; both programs apply exactly
  these operations, so no algebraic law — and no finiteness of the inputs — is needed to join them.

  The four results as whole arrays: over the [4, 2048, 1024] inputs (`sumArr`, `meanArr`, `rstdArr`, `outArr`: row
  (b, m) of the inputs) and over the same data laid out as 8192 rows (`sumFlat`, `meanFlat`, `rstdFlat`, `outFlat`: row
  r = 2048·b + m, the scale, shift and bias as one-row matrices).
-/
import Idealize.ShloMosaic.PureOps.Ideal
import Idealize.ShloMosaic.Lib.ValueIdx

noncomputable section

namespace Cert.AddNormDense

open Idealize.ShloMosaic Idealize.ShloMosaic.ValueIdx

/-- The row length 1024.0 as the float literal both programs divide by. -/
abbrev nFeat : EReal := Ideal.ofBits .f32 0x44800000#32
/-- The variance offset ε (the float nearest 1e-5) as the literal both programs add. -/
abbrev eps : EReal := Ideal.ofBits .f32 0x3727C5AC#32

/-- The mean of a row. -/
def mean (s : Fin 1024 → EReal) : EReal := Ideal.div (∑ n : Fin 1024, s n) nFeat
/-- A row's entry less the row's mean. -/
def cen (s : Fin 1024 → EReal) (n : Fin 1024) : EReal := s n - mean s
/-- The reciprocal standard deviation of a row: rsqrt of the mean of the squared centred entries, plus ε. -/
def rstd (s : Fin 1024 → EReal) : EReal :=
  Ideal.rsqrt (Ideal.div (∑ n : Fin 1024, cen s n * cen s n) nFeat + eps)
/-- The normalised row, scaled by `g` and shifted by `be`. -/
def normed (s g be : Fin 1024 → EReal) (n : Fin 1024) : EReal := cen s n * rstd s * g n + be n
/-- The normalised row times the weight matrix, plus the bias, at output column `q`. -/
def dense (s g be : Fin 1024 → EReal) (w : Fin 1024 → Fin 4096 → EReal) (bias : Fin 4096 → EReal) (q : Fin 4096) : EReal :=
  (∑ k : Fin 1024, normed s g be k * w k q) + bias q

/-! ## Over the [4, 2048, 1024] arrays -/

/-- Row (b, m) of the sum of two [4, 2048, 1024] arrays. -/
def row3 (X1 X2 : (⟨3, ![4, 2048, 1024]⟩ : Shape).Idx → EReal) (b : Fin 4) (m : Fin 2048) (n : Fin 1024) : EReal :=
  X1 (ix3 b m n) + X2 (ix3 b m n)

/-- The first result: the sum, entry by entry. -/
def sumArr (X1 X2 : (⟨3, ![4, 2048, 1024]⟩ : Shape).Idx → EReal) : (⟨3, ![4, 2048, 1024]⟩ : Shape).Idx → EReal :=
  fun i => X1 i + X2 i
/-- The second result: the mean of each row. -/
def meanArr (X1 X2 : (⟨3, ![4, 2048, 1024]⟩ : Shape).Idx → EReal) : (⟨2, ![4, 2048]⟩ : Shape).Idx → EReal :=
  fun j => mean (row3 X1 X2 (j 0) (j 1))
/-- The third result: the reciprocal standard deviation of each row. -/
def rstdArr (X1 X2 : (⟨3, ![4, 2048, 1024]⟩ : Shape).Idx → EReal) : (⟨2, ![4, 2048]⟩ : Shape).Idx → EReal :=
  fun j => rstd (row3 X1 X2 (j 0) (j 1))
/-- The fourth result: each normalised row times the weights, plus the bias. -/
def outArr (X1 X2 : (⟨3, ![4, 2048, 1024]⟩ : Shape).Idx → EReal) (W : (⟨2, ![1024, 4096]⟩ : Shape).Idx → EReal)
    (B : (⟨1, ![4096]⟩ : Shape).Idx → EReal) (Ga Be : (⟨1, ![1024]⟩ : Shape).Idx → EReal) :
    (⟨3, ![4, 2048, 4096]⟩ : Shape).Idx → EReal :=
  fun i => dense (row3 X1 X2 (i 0) (i 1)) (fun n => Ga (ix1 n)) (fun n => Be (ix1 n)) (fun k q => W (ix2 k q))
    (fun q => B (ix1 q)) (i 2)

theorem sumArr_apply (X1 X2 : (⟨3, ![4, 2048, 1024]⟩ : Shape).Idx → EReal) (b : Fin 4) (m : Fin 2048) (n : Fin 1024) :
    sumArr X1 X2 (ix3 b m n) = row3 X1 X2 b m n := rfl
theorem meanArr_apply (X1 X2 : (⟨3, ![4, 2048, 1024]⟩ : Shape).Idx → EReal) (b : Fin 4) (m : Fin 2048) :
    meanArr X1 X2 (ix2 b m) = mean (row3 X1 X2 b m) := rfl
theorem rstdArr_apply (X1 X2 : (⟨3, ![4, 2048, 1024]⟩ : Shape).Idx → EReal) (b : Fin 4) (m : Fin 2048) :
    rstdArr X1 X2 (ix2 b m) = rstd (row3 X1 X2 b m) := rfl
theorem outArr_apply (X1 X2 : (⟨3, ![4, 2048, 1024]⟩ : Shape).Idx → EReal) (W : (⟨2, ![1024, 4096]⟩ : Shape).Idx → EReal)
    (B : (⟨1, ![4096]⟩ : Shape).Idx → EReal) (Ga Be : (⟨1, ![1024]⟩ : Shape).Idx → EReal) (b : Fin 4) (m : Fin 2048) (q : Fin 4096) :
    outArr X1 X2 W B Ga Be (ix3 b m q)
      = dense (row3 X1 X2 b m) (fun n => Ga (ix1 n)) (fun n => Be (ix1 n)) (fun k q => W (ix2 k q)) (fun q => B (ix1 q)) q := rfl

/-! ## Over the same data as 8192 rows -/

/-- Row r of the sum of two [8192, 1024] arrays. -/
def row2 (A0 A1 : (⟨2, ![8192, 1024]⟩ : Shape).Idx → EReal) (r : Fin 8192) (n : Fin 1024) : EReal :=
  A0 (ix2 r n) + A1 (ix2 r n)

def sumFlat (A0 A1 : (⟨2, ![8192, 1024]⟩ : Shape).Idx → EReal) : (⟨2, ![8192, 1024]⟩ : Shape).Idx → EReal :=
  fun i => A0 i + A1 i
def meanFlat (A0 A1 : (⟨2, ![8192, 1024]⟩ : Shape).Idx → EReal) : (⟨2, ![8192, 1]⟩ : Shape).Idx → EReal :=
  fun j => mean (row2 A0 A1 (j 0))
def rstdFlat (A0 A1 : (⟨2, ![8192, 1024]⟩ : Shape).Idx → EReal) : (⟨2, ![8192, 1]⟩ : Shape).Idx → EReal :=
  fun j => rstd (row2 A0 A1 (j 0))
def outFlat (A0 A1 : (⟨2, ![8192, 1024]⟩ : Shape).Idx → EReal) (Wb : (⟨2, ![1024, 4096]⟩ : Shape).Idx → EReal)
    (Bb : (⟨2, ![1, 4096]⟩ : Shape).Idx → EReal) (Gg Bg : (⟨2, ![1, 1024]⟩ : Shape).Idx → EReal) :
    (⟨2, ![8192, 4096]⟩ : Shape).Idx → EReal :=
  fun i => dense (row2 A0 A1 (i 0)) (fun n => Gg (ix2 (0 : Fin 1) n)) (fun n => Bg (ix2 (0 : Fin 1) n))
    (fun k q => Wb (ix2 k q)) (fun q => Bb (ix2 (0 : Fin 1) q)) (i 1)

theorem sumFlat_apply (A0 A1 : (⟨2, ![8192, 1024]⟩ : Shape).Idx → EReal) (r : Fin 8192) (n : Fin 1024) :
    sumFlat A0 A1 (ix2 r n) = row2 A0 A1 r n := rfl
theorem meanFlat_apply (A0 A1 : (⟨2, ![8192, 1024]⟩ : Shape).Idx → EReal) (r : Fin 8192) (u : Fin 1) :
    meanFlat A0 A1 (ix2 r u) = mean (row2 A0 A1 r) := rfl
theorem rstdFlat_apply (A0 A1 : (⟨2, ![8192, 1024]⟩ : Shape).Idx → EReal) (r : Fin 8192) (u : Fin 1) :
    rstdFlat A0 A1 (ix2 r u) = rstd (row2 A0 A1 r) := rfl
theorem outFlat_apply (A0 A1 : (⟨2, ![8192, 1024]⟩ : Shape).Idx → EReal) (Wb : (⟨2, ![1024, 4096]⟩ : Shape).Idx → EReal)
    (Bb : (⟨2, ![1, 4096]⟩ : Shape).Idx → EReal) (Gg Bg : (⟨2, ![1, 1024]⟩ : Shape).Idx → EReal) (r : Fin 8192) (q : Fin 4096) :
    outFlat A0 A1 Wb Bb Gg Bg (ix2 r q)
      = dense (row2 A0 A1 r) (fun n => Gg (ix2 (0 : Fin 1) n)) (fun n => Bg (ix2 (0 : Fin 1) n))
          (fun k q => Wb (ix2 k q)) (fun q => Bb (ix2 (0 : Fin 1) q)) q := rfl

end Cert.AddNormDense

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.KernelBody.lean ====
/-
  What one grid point of the kernel computes, entry by entry.

  A grid point holds a block of 256 rows: x0, x1 the two [256, 1024] input blocks, g and be the one-row scale and shift,
  w the [1024, 4096] weights and bias the one-row bias.  The body's stored values, read at an entry over the extended
  reals, are the row-wise functions of the specification applied to row p of x0 + x1:

      the sum block            at (p, n)  is  x0[p, n] + x1[p, n],
      the mean column          at (p, 0)  is  mean of row p,
      the rstd column          at (p, 0)  is  rstd of row p,
      the output block         at (p, q)  is  dense of row p at column q.

  A change of float format on the way into the matrix product is the identity here, the lane sums are plain sums, and the
  matrix product into zeros is the sum over the contracted axis.
-/
import proofs.«110921_j36558761623582_2_alg».proof.Proof.Gen.KernelIdeal.Skeleton
import proofs.«110921_j36558761623582_2_alg».proof.Proof.Spec
import proofs.«110921_j36558761623582_2_alg».proof.Proof.LibMatmulNN
import proofs.«110921_j36558761623582_2_alg».proof.Proof.LibKeepdimsColumn
import proofs.«110921_j36558761623582_2_alg».proof.Proof.LibSlabLayout
import Idealize.ShloMosaic.Lib.ValueLayout
import Idealize.ShloMosaic.Lib.Pipeline.Value
import Idealize.ShloMosaic.PureOps.Ideal.Laws

noncomputable section

namespace Cert.AddNormDense.Body

open Cert.KernelIdeal Cert.KernelIdeal.Gen Idealize.ShloMosaic Idealize.ShloMosaic.ValueIdx Cert.AddNormDense

/-- Row p of the sum of the two input blocks. -/
def rowB (x0 x1 : (⟨2, ![256, 1024]⟩ : Shape).Idx → EReal) (p : Fin 256) (n : Fin 1024) : EReal :=
  x0 (ix2 p n) + x1 (ix2 p n)

/-- The stored sum block at (p, n). -/
theorem sum_apply (x0 x1 : Vec Ideal S256x1024 .f32) (p : Fin 256) (n : Fin 1024) :
    k0_pay2 (F := Ideal) x0 x1 (ix2 p n) = rowB x0 x1 p n := by
  unfold k0_pay2
  rw [shapeCast_self, shapeCast_self]
  rfl

/-- The stored mean column at (p, u): the mean of row p. -/
theorem mean_apply (x0 x1 : Vec Ideal S256x1024 .f32) (p : Fin 256) (u : Fin 1) :
    k0_pay3 (F := Ideal) x0 x1 (ix2 p u) = mean (rowB x0 x1 p) := by
  unfold k0_pay3
  rw [divf_apply, broadcast_apply]
  refine congrArg₂ Ideal.div ?_ rfl
  refine (Cert.KeepdimsColumn.shapeCast_a_a1_apply _ shapeCasts_S256_S256x1 p u).trans ?_
  refine (Cert.SlabLayout.rowSum_apply (k0_pay2 (F := Ideal) x0 x1) 0x00000000#32 reduces_S256x1024_S256 (.inl rfl) rfl p).trans ?_
  exact Finset.sum_congr rfl fun n _ => sum_apply x0 x1 p n

/-- The centred block at (p, n): the entry less its row's mean. -/
theorem cen_apply (x0 x1 : Vec Ideal S256x1024 .f32) (p : Fin 256) (n : Fin 1024) :
    k0_pay4 (F := Ideal) x0 x1 (ix2 p n) = cen (rowB x0 x1 p) n := by
  unfold k0_pay4 cen
  rw [subf_apply]
  refine congrArg₂ (· - ·) (sum_apply x0 x1 p n) ?_
  refine (Cert.KeepdimsColumn.broadcastTo_a1_ab_apply _ broadcasts_S256x1_S256x1024 p n).trans ?_
  exact mean_apply x0 x1 p 0

/-- A reciprocal square root of a vector, entry by entry. -/
theorem rsqrt_entry {s : Shape} (a : FVec Ideal s .f32) (i : s.Idx) : rsqrt a i = Ideal.rsqrt (a i) := rfl

/-- The stored rstd column at (p, u): the reciprocal standard deviation of row p. -/
theorem rstd_apply (x0 x1 : Vec Ideal S256x1024 .f32) (p : Fin 256) (u : Fin 1) :
    k0_pay5 (F := Ideal) x0 x1 (ix2 p u) = rstd (rowB x0 x1 p) := by
  unfold k0_pay5 rstd
  rw [rsqrt_entry, addf_apply, divf_apply, broadcast_apply, broadcast_apply]
  refine congrArg Ideal.rsqrt (congrArg₂ (· + ·) (congrArg₂ Ideal.div ?_ rfl) rfl)
  refine (Cert.KeepdimsColumn.shapeCast_a_a1_apply _ shapeCasts_S256_S256x1 p u).trans ?_
  refine (Cert.SlabLayout.rowSum_apply (mulf (k0_pay4 (F := Ideal) x0 x1) (k0_pay4 (F := Ideal) x0 x1)) 0x00000000#32
    reduces_S256x1024_S256 (.inl rfl) rfl p).trans ?_
  refine Finset.sum_congr rfl fun n _ => ?_
  rw [mulf_apply, cen_apply]

/-- The normalised, scaled and shifted block (the left operand of the matrix product) at (p, n). -/
theorem normed_apply (x0 x1 : Vec Ideal S256x1024 .f32) (g be : Vec Ideal S1x1024 .f32) (p : Fin 256) (n : Fin 1024) :
    k0_pay6 (F := Ideal) x0 x1 g be (ix2 p n)
      = normed (rowB x0 x1 p) (fun n => g (ix2 (0 : Fin 1) n)) (fun n => be (ix2 (0 : Fin 1) n)) n := by
  unfold k0_pay6 normed
  rw [truncf_apply, addf_apply, mulf_apply, mulf_apply]
  refine congrArg₂ (· + ·) (congrArg₂ (· * ·) (congrArg₂ (· * ·) (cen_apply x0 x1 p n) ?_) ?_) ?_
  · exact (Cert.KeepdimsColumn.broadcastTo_a1_ab_apply _ broadcasts_S256x1_S256x1024 p n).trans (rstd_apply x0 x1 p 0)
  · refine (broadcastTo_1b_ab_apply _ broadcasts_S1x1024_S256x1024 p n).trans ?_
    rw [shapeCast_self]
  · refine (broadcastTo_1b_ab_apply _ broadcasts_S1x1024_S256x1024 p n).trans ?_
    rw [shapeCast_self]

/-- A [256, 1024] by [1024, 4096] product into zeros plus a broadcast bias row, at (p, q). -/
theorem product_apply (L : FVec Ideal S256x1024 .bf16) (Rm : FVec Ideal S1024x4096 .bf16) (bias : Vec Ideal S1x4096 .f32)
    (p : Fin 256) (q : Fin 4096) :
    k0_pay1 (F := Ideal) L Rm bias (ix2 p q) = (∑ k : Fin 1024, L (ix2 p k) * Rm (ix2 k q)) + bias (ix2 (0 : Fin 1) q) := by
  unfold k0_pay1
  rw [addf_apply]
  refine congrArg₂ (· + ·) ?_ ?_
  · exact Cert.MatmulNN.matmul_zero_apply dot_S256x1024_S1024x4096_S256x4096_1_0_0_1_n_n rfl none L Rm p q
  · refine (broadcastTo_1b_ab_apply _ broadcasts_S1x4096_S256x4096 p q).trans ?_
    rw [shapeCast_self]

/-- The stored output block at (p, q): the normalised row p times the weights, plus the bias. -/
theorem out_apply (x0 x1 : Vec Ideal S256x1024 .f32) (w : Vec Ideal S1024x4096 .bf16) (bias : Vec Ideal S1x4096 .f32)
    (g be : Vec Ideal S1x1024 .f32) (p : Fin 256) (q : Fin 4096) :
    k0_pay1 (F := Ideal) (k0_pay6 (F := Ideal) x0 x1 g be) (k0_pay7 (F := Ideal) w) bias (ix2 p q)
      = dense (rowB x0 x1 p) (fun n => g (ix2 (0 : Fin 1) n)) (fun n => be (ix2 (0 : Fin 1) n)) (fun k q => w (ix2 k q))
          (fun q => bias (ix2 (0 : Fin 1) q)) q := by
  refine (product_apply _ _ bias p q).trans ?_
  unfold dense
  refine congrArg₂ (· + ·) (Finset.sum_congr rfl fun k _ => congrArg₂ (· * ·) (normed_apply x0 x1 g be p k) ?_) rfl
  unfold k0_pay7
  rw [shapeCast_self]

end Cert.AddNormDense.Body

end
-- ==== Proof.KernelBlocks.lean ====
/-
  From the kernel's blocks to its four result arrays.

  The 8192 rows are cut into 32 blocks of 256 rows; grid point t reads rows 256·t … 256·t + 255 of the two inputs (and
  the whole weights, bias, scale and shift) and writes the same rows of the four results.  Every entry of a result lies
  in exactly the block of point t = r / 256, so the arrays after the run are the row-wise functions of the
  specification over the 8192-row layout of the inputs.
-/
import proofs.«110921_j36558761623582_2_alg».proof.Proof.Gen.KernelIdeal.Frame
import proofs.«110921_j36558761623582_2_alg».proof.Proof.KernelBody
import Idealize.ShloMosaic.Lib.Pipeline.Value
import Idealize.ShloMosaic.Lib.StableHlo.Run

noncomputable section

namespace Cert.AddNormDense.Blocks

open Cert.KernelIdeal Cert.KernelIdeal.Gen Idealize.ShloMosaic Idealize.ShloMosaic.TcCoe Idealize.SL.Sem
open Idealize.ShloMosaic.ValueIdx Cert.AddNormDense
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index maps over the grid: the row-blocked windows are at block (t, 0), the resident ones at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-! ## The input blocks as rows of the arrays the region finds -/

/-- Block t of the first input at (p, n) is row 256·t + p of the array. -/
theorem iblk0_apply (c : Dev nD) (t : Fin cfg0.N) (p : Fin 256) (n : Fin 1024) (r : Fin 8192) (hr : r.val = 256 * t.val + p.val) :
    (iblk m c 0 t : Vec Ideal S256x1024 .f32) (ix2 p n) = (V m c main_call0_v0 : S8192x1024.Idx → EReal) (ix2 r n) := by
  obtain ⟨e0, e1, -⟩ := idx_facts t
  unfold iblk
  rw [View.read_apply]
  show V m c main_call0_v0 _ = V m c main_call0_v0 _
  refine congrArg (V m c main_call0_v0 : S8192x1024.Idx → EReal) ?_
  funext a
  apply Fin.ext
  match a with
  | ⟨0, _⟩ => show win0_0.index t (0 : Fin 2) * 256 + 1 * p.val = r.val; omega
  | ⟨1, _⟩ => show win0_0.index t (1 : Fin 2) * 1024 + 1 * n.val = n.val; omega

/-- Block t of the second input at (p, n) is row 256·t + p of the array. -/
theorem iblk1_apply (c : Dev nD) (t : Fin cfg0.N) (p : Fin 256) (n : Fin 1024) (r : Fin 8192) (hr : r.val = 256 * t.val + p.val) :
    (iblk m c 1 t : Vec Ideal S256x1024 .f32) (ix2 p n) = (V m c main_call0_v1 : S8192x1024.Idx → EReal) (ix2 r n) := by
  obtain ⟨-, -, e0, e1, -⟩ := idx_facts t
  unfold iblk
  rw [View.read_apply]
  show V m c main_call0_v1 _ = V m c main_call0_v1 _
  refine congrArg (V m c main_call0_v1 : S8192x1024.Idx → EReal) ?_
  funext a
  apply Fin.ext
  match a with
  | ⟨0, _⟩ => show win0_1.index t (0 : Fin 2) * 256 + 1 * p.val = r.val; omega
  | ⟨1, _⟩ => show win0_1.index t (1 : Fin 2) * 1024 + 1 * n.val = n.val; omega

/-- The weights' block is the whole array at every point. -/
theorem iblk2_apply (c : Dev nD) (t : Fin cfg0.N) (k : Fin 1024) (q : Fin 4096) :
    (iblk m c 2 t : Vec Ideal S1024x4096 .bf16) (ix2 k q) = (V m c main_call0_v5 : S1024x4096.Idx → EReal) (ix2 k q) := by
  obtain ⟨-, -, -, -, e0, e1, -⟩ := idx_facts t
  unfold iblk
  rw [View.read_apply]
  show V m c main_call0_v5 _ = V m c main_call0_v5 _
  refine congrArg (V m c main_call0_v5 : S1024x4096.Idx → EReal) ?_
  funext a
  apply Fin.ext
  match a with
  | ⟨0, _⟩ => show win0_2.index t (0 : Fin 2) * 1024 + 1 * k.val = k.val; omega
  | ⟨1, _⟩ => show win0_2.index t (1 : Fin 2) * 4096 + 1 * q.val = q.val; omega

/-- The bias row's block is the whole one-row array at every point. -/
theorem iblk3_apply (c : Dev nD) (t : Fin cfg0.N) (u : Fin 1) (q : Fin 4096) :
    (iblk m c 3 t : Vec Ideal S1x4096 .f32) (ix2 u q) = (V m c main_call0_v4 : S1x4096.Idx → EReal) (ix2 u q) := by
  obtain ⟨-, -, -, -, -, -, e0, e1, -⟩ := idx_facts t
  unfold iblk
  rw [View.read_apply]
  show V m c main_call0_v4 _ = V m c main_call0_v4 _
  refine congrArg (V m c main_call0_v4 : S1x4096.Idx → EReal) ?_
  funext a
  apply Fin.ext
  match a with
  | ⟨0, _⟩ => show win0_3.index t (0 : Fin 2) * 1 + 1 * u.val = u.val; omega
  | ⟨1, _⟩ => show win0_3.index t (1 : Fin 2) * 4096 + 1 * q.val = q.val; omega

/-- The scale row's block is the whole one-row array at every point. -/
theorem iblk4_apply (c : Dev nD) (t : Fin cfg0.N) (u : Fin 1) (n : Fin 1024) :
    (iblk m c 4 t : Vec Ideal S1x1024 .f32) (ix2 u n) = (V m c main_call0_v2 : S1x1024.Idx → EReal) (ix2 u n) := by
  obtain ⟨-, -, -, -, -, -, -, -, e0, e1, -⟩ := idx_facts t
  unfold iblk
  rw [View.read_apply]
  show V m c main_call0_v2 _ = V m c main_call0_v2 _
  refine congrArg (V m c main_call0_v2 : S1x1024.Idx → EReal) ?_
  funext a
  apply Fin.ext
  match a with
  | ⟨0, _⟩ => show win0_4.index t (0 : Fin 2) * 1 + 1 * u.val = u.val; omega
  | ⟨1, _⟩ => show win0_4.index t (1 : Fin 2) * 1024 + 1 * n.val = n.val; omega

/-- The shift row's block is the whole one-row array at every point. -/
theorem iblk5_apply (c : Dev nD) (t : Fin cfg0.N) (u : Fin 1) (n : Fin 1024) :
    (iblk m c 5 t : Vec Ideal S1x1024 .f32) (ix2 u n) = (V m c main_call0_v3 : S1x1024.Idx → EReal) (ix2 u n) := by
  obtain ⟨-, -, -, -, -, -, -, -, -, -, e0, e1, -⟩ := idx_facts t
  unfold iblk
  rw [View.read_apply]
  show V m c main_call0_v3 _ = V m c main_call0_v3 _
  refine congrArg (V m c main_call0_v3 : S1x1024.Idx → EReal) ?_
  funext a
  apply Fin.ext
  match a with
  | ⟨0, _⟩ => show win0_5.index t (0 : Fin 2) * 1 + 1 * u.val = u.val; omega
  | ⟨1, _⟩ => show win0_5.index t (1 : Fin 2) * 1024 + 1 * n.val = n.val; omega

/-- Row p of the sum of the two input blocks at point t is row 256·t + p of the sum of the two arrays. -/
theorem rowB_iblk (c : Dev nD) (t : Fin cfg0.N) (p : Fin 256) (r : Fin 8192) (hr : r.val = 256 * t.val + p.val) :
    Body.rowB (iblk m c 0 t) (iblk m c 1 t) p = row2 (V m c main_call0_v0) (V m c main_call0_v1) r := by
  funext n
  unfold Body.rowB row2
  rw [iblk0_apply m c t p n r hr, iblk1_apply m c t p n r hr]

/-! ## What each point writes back -/

/-- Point t writes back block t of the sum. -/
theorem flushed6_eq (c : Dev nD) (t : Fin cfg0.N) :
    (dats m 0 c).flushed 6 t
      = ((cfg0.win 6).blk t).view.read (Elt Ideal) (sumFlat (V m c main_call0_v0) (V m c main_call0_v1)) := by
  show (cfg0.win 6).cut (grid0.coords t) ((dats m 0 c).after 6 t) = _
  rw [after0_6]
  unfold out0_6
  rw [View.canon_unit_zero hz]
  simp only [View.ld_unit_zero (S := S256x1024) hz]
  funext j
  obtain ⟨p, n, rfl⟩ : ∃ (p : Fin 256) (n : Fin 1024), j = ix2 p n := ⟨j 0, j 1, eq_ix2 j⟩
  obtain ⟨-, -, -, -, -, -, -, -, -, -, -, -, e0, e1, -⟩ := idx_facts t
  have hN : cfg0.N = 32 := N_0
  have ht := t.isLt
  have hp := p.isLt
  refine (Body.sum_apply (iblk m c 0 t) (iblk m c 1 t) p n).trans ?_
  rw [rowB_iblk m c t p ⟨256 * t.val + p.val, by omega⟩ rfl, View.read_apply]
  refine (sumFlat_apply _ _ _ n).symm.trans ?_
  refine congrArg (sumFlat (V m c main_call0_v0) (V m c main_call0_v1)) ?_
  funext a
  apply Fin.ext
  match a with
  | ⟨0, _⟩ => show 256 * t.val + p.val = win0_6.index t (0 : Fin 2) * 256 + 1 * p.val; omega
  | ⟨1, _⟩ => show n.val = win0_6.index t (1 : Fin 2) * 1024 + 1 * n.val; omega

/-- Point t writes back block t of the column of means. -/
theorem flushed7_eq (c : Dev nD) (t : Fin cfg0.N) :
    (dats m 0 c).flushed 7 t
      = ((cfg0.win 7).blk t).view.read (Elt Ideal) (meanFlat (V m c main_call0_v0) (V m c main_call0_v1)) := by
  show (cfg0.win 7).cut (grid0.coords t) ((dats m 0 c).after 7 t) = _
  rw [after0_7]
  unfold out0_7
  rw [View.canon_unit_zero hz]
  simp only [View.ld_unit_zero (S := S256x1024) hz]
  funext j
  obtain ⟨p, u, rfl⟩ : ∃ (p : Fin 256) (u : Fin 1), j = ix2 p u := ⟨j 0, j 1, eq_ix2 j⟩
  obtain ⟨-, -, -, -, -, -, -, -, -, -, -, -, -, -, e0, e1, -⟩ := idx_facts t
  have hN : cfg0.N = 32 := N_0
  have ht := t.isLt
  have hp := p.isLt
  refine (Body.mean_apply (iblk m c 0 t) (iblk m c 1 t) p u).trans ?_
  rw [rowB_iblk m c t p ⟨256 * t.val + p.val, by omega⟩ rfl, View.read_apply]
  refine (meanFlat_apply _ _ _ u).symm.trans ?_
  refine congrArg (meanFlat (V m c main_call0_v0) (V m c main_call0_v1)) ?_
  funext a
  apply Fin.ext
  match a with
  | ⟨0, _⟩ => show 256 * t.val + p.val = win0_7.index t (0 : Fin 2) * 256 + 1 * p.val; omega
  | ⟨1, _⟩ => show u.val = win0_7.index t (1 : Fin 2) * 1 + 1 * u.val; omega

/-- Point t writes back block t of the column of reciprocal standard deviations. -/
theorem flushed8_eq (c : Dev nD) (t : Fin cfg0.N) :
    (dats m 0 c).flushed 8 t
      = ((cfg0.win 8).blk t).view.read (Elt Ideal) (rstdFlat (V m c main_call0_v0) (V m c main_call0_v1)) := by
  show (cfg0.win 8).cut (grid0.coords t) ((dats m 0 c).after 8 t) = _
  rw [after0_8]
  unfold out0_8
  rw [View.canon_unit_zero hz]
  simp only [View.ld_unit_zero (S := S256x1024) hz]
  funext j
  obtain ⟨p, u, rfl⟩ : ∃ (p : Fin 256) (u : Fin 1), j = ix2 p u := ⟨j 0, j 1, eq_ix2 j⟩
  obtain ⟨-, -, -, -, -, -, -, -, -, -, -, -, -, -, -, -, e0, e1, -⟩ := idx_facts t
  have hN : cfg0.N = 32 := N_0
  have ht := t.isLt
  have hp := p.isLt
  refine (Body.rstd_apply (iblk m c 0 t) (iblk m c 1 t) p u).trans ?_
  rw [rowB_iblk m c t p ⟨256 * t.val + p.val, by omega⟩ rfl, View.read_apply]
  refine (rstdFlat_apply _ _ _ u).symm.trans ?_
  refine congrArg (rstdFlat (V m c main_call0_v0) (V m c main_call0_v1)) ?_
  funext a
  apply Fin.ext
  match a with
  | ⟨0, _⟩ => show 256 * t.val + p.val = win0_8.index t (0 : Fin 2) * 256 + 1 * p.val; omega
  | ⟨1, _⟩ => show u.val = win0_8.index t (1 : Fin 2) * 1 + 1 * u.val; omega

/-- Point t writes back block t of the output. -/
theorem flushed9_eq (c : Dev nD) (t : Fin cfg0.N) :
    (dats m 0 c).flushed 9 t
      = ((cfg0.win 9).blk t).view.read (Elt Ideal)
          (outFlat (V m c main_call0_v0) (V m c main_call0_v1) (V m c main_call0_v5) (V m c main_call0_v4)
            (V m c main_call0_v2) (V m c main_call0_v3)) := by
  show (cfg0.win 9).cut (grid0.coords t) ((dats m 0 c).after 9 t) = _
  rw [after0_9]
  unfold out0_9
  rw [View.canon_unit_zero hz]
  simp only [View.ld_unit_zero (S := S256x1024) hz, View.ld_unit_zero (S := S1x1024) hz,
    View.ld_unit_zero (S := S1024x4096) hz, View.ld_unit_zero (S := S1x4096) hz]
  funext j
  obtain ⟨p, q, rfl⟩ : ∃ (p : Fin 256) (q : Fin 4096), j = ix2 p q := ⟨j 0, j 1, eq_ix2 j⟩
  obtain ⟨-, -, -, -, -, -, -, -, -, -, -, -, -, -, -, -, -, -, e0, e1⟩ := idx_facts t
  have hN : cfg0.N = 32 := N_0
  have ht := t.isLt
  have hp := p.isLt
  refine (Body.out_apply (iblk m c 0 t) (iblk m c 1 t) (iblk m c 2 t) (iblk m c 3 t) (iblk m c 4 t) (iblk m c 5 t) p q).trans ?_
  rw [rowB_iblk m c t p ⟨256 * t.val + p.val, by omega⟩ rfl, View.read_apply]
  simp only [iblk2_apply m c t, iblk3_apply m c t, iblk4_apply m c t, iblk5_apply m c t]
  refine (outFlat_apply _ _ _ _ _ _ _ q).symm.trans ?_
  refine congrArg (outFlat (V m c main_call0_v0) (V m c main_call0_v1) (V m c main_call0_v5) (V m c main_call0_v4)
    (V m c main_call0_v2) (V m c main_call0_v3)) ?_
  funext a
  apply Fin.ext
  match a with
  | ⟨0, _⟩ => show 256 * t.val + p.val = win0_9.index t (0 : Fin 2) * 256 + 1 * p.val; omega
  | ⟨1, _⟩ => show q.val = win0_9.index t (1 : Fin 2) * 4096 + 1 * q.val; omega

/-! ## Every entry of a result is written by some point -/

/-- An entry of result 0's array is in point t's block iff its row is among rows 256·t … 256·t + 255. -/
theorem mem_blk6 (t : Fin cfg0.N) (i : S8192x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_call0_v6_0).slice (win0_6.rect t)).set ↔ _
  rw [View.set_slice_whole, Rect.mem_set_unit]
  exact Iff.rfl

/-- Every entry lies in the block of the point its row falls in. -/
theorem cover6 (i : S8192x1024.Idx) :
    ∃ t : Fin cfg0.N, (cfg0.win 6).flush t = true ∧ i ∈ ((cfg0.win 6).blk t).view.set := by
  have hN : cfg0.N = 32 := N_0
  have h0 : (i 0).val < 8192 := (i 0).isLt
  have h1 : (i 1).val < 1024 := (i 1).isLt
  obtain ⟨t, htv⟩ : ∃ t : Fin cfg0.N, t.val = (i 0).val / 256 := ⟨⟨(i 0).val / 256, by omega⟩, rfl⟩
  obtain ⟨-, -, -, -, -, -, -, -, -, -, -, -, e0, e1, -⟩ := idx_facts t
  refine ⟨t, flush0_6 t, ?_⟩
  rw [mem_blk6]
  intro a
  match a with
  | ⟨0, _⟩ =>
    show win0_6.index t (0 : Fin 2) * 256 ≤ (i 0).val ∧ (i 0).val < win0_6.index t (0 : Fin 2) * 256 + 256
    omega
  | ⟨1, _⟩ =>
    show win0_6.index t (1 : Fin 2) * 1024 ≤ (i 1).val ∧ (i 1).val < win0_6.index t (1 : Fin 2) * 1024 + 1024
    omega

/-- An entry of result 1's array is in point t's block iff its row is among rows 256·t … 256·t + 255. -/
theorem mem_blk7 (t : Fin cfg0.N) (i : S8192x1.Idx) :
    i ∈ ((cfg0.win 7).blk t).view.set ↔ ∀ a : Fin 2, win0_7.index t a * S256x1.size a ≤ (i a).val
      ∧ (i a).val < win0_7.index t a * S256x1.size a + S256x1.size a := by
  show i ∈ ((View.whole main_call0_v6_1).slice (win0_7.rect t)).set ↔ _
  rw [View.set_slice_whole, Rect.mem_set_unit]
  exact Iff.rfl

/-- Every entry lies in the block of the point its row falls in. -/
theorem cover7 (i : S8192x1.Idx) :
    ∃ t : Fin cfg0.N, (cfg0.win 7).flush t = true ∧ i ∈ ((cfg0.win 7).blk t).view.set := by
  have hN : cfg0.N = 32 := N_0
  have h0 : (i 0).val < 8192 := (i 0).isLt
  have h1 : (i 1).val < 1 := (i 1).isLt
  obtain ⟨t, htv⟩ : ∃ t : Fin cfg0.N, t.val = (i 0).val / 256 := ⟨⟨(i 0).val / 256, by omega⟩, rfl⟩
  obtain ⟨-, -, -, -, -, -, -, -, -, -, -, -, -, -, e0, e1, -⟩ := idx_facts t
  refine ⟨t, flush0_7 t, ?_⟩
  rw [mem_blk7]
  intro a
  match a with
  | ⟨0, _⟩ =>
    show win0_7.index t (0 : Fin 2) * 256 ≤ (i 0).val ∧ (i 0).val < win0_7.index t (0 : Fin 2) * 256 + 256
    omega
  | ⟨1, _⟩ =>
    show win0_7.index t (1 : Fin 2) * 1 ≤ (i 1).val ∧ (i 1).val < win0_7.index t (1 : Fin 2) * 1 + 1
    omega

/-- An entry of result 2's array is in point t's block iff its row is among rows 256·t … 256·t + 255. -/
theorem mem_blk8 (t : Fin cfg0.N) (i : S8192x1.Idx) :
    i ∈ ((cfg0.win 8).blk t).view.set ↔ ∀ a : Fin 2, win0_8.index t a * S256x1.size a ≤ (i a).val
      ∧ (i a).val < win0_8.index t a * S256x1.size a + S256x1.size a := by
  show i ∈ ((View.whole main_call0_v6_2).slice (win0_8.rect t)).set ↔ _
  rw [View.set_slice_whole, Rect.mem_set_unit]
  exact Iff.rfl

/-- Every entry lies in the block of the point its row falls in. -/
theorem cover8 (i : S8192x1.Idx) :
    ∃ t : Fin cfg0.N, (cfg0.win 8).flush t = true ∧ i ∈ ((cfg0.win 8).blk t).view.set := by
  have hN : cfg0.N = 32 := N_0
  have h0 : (i 0).val < 8192 := (i 0).isLt
  have h1 : (i 1).val < 1 := (i 1).isLt
  obtain ⟨t, htv⟩ : ∃ t : Fin cfg0.N, t.val = (i 0).val / 256 := ⟨⟨(i 0).val / 256, by omega⟩, rfl⟩
  obtain ⟨-, -, -, -, -, -, -, -, -, -, -, -, -, -, -, -, e0, e1, -⟩ := idx_facts t
  refine ⟨t, flush0_8 t, ?_⟩
  rw [mem_blk8]
  intro a
  match a with
  | ⟨0, _⟩ =>
    show win0_8.index t (0 : Fin 2) * 256 ≤ (i 0).val ∧ (i 0).val < win0_8.index t (0 : Fin 2) * 256 + 256
    omega
  | ⟨1, _⟩ =>
    show win0_8.index t (1 : Fin 2) * 1 ≤ (i 1).val ∧ (i 1).val < win0_8.index t (1 : Fin 2) * 1 + 1
    omega

/-- An entry of result 3's array is in point t's block iff its row is among rows 256·t … 256·t + 255. -/
theorem mem_blk9 (t : Fin cfg0.N) (i : S8192x4096.Idx) :
    i ∈ ((cfg0.win 9).blk t).view.set ↔ ∀ a : Fin 2, win0_9.index t a * S256x4096.size a ≤ (i a).val
      ∧ (i a).val < win0_9.index t a * S256x4096.size a + S256x4096.size a := by
  show i ∈ ((View.whole main_call0_v6_3).slice (win0_9.rect t)).set ↔ _
  rw [View.set_slice_whole, Rect.mem_set_unit]
  exact Iff.rfl

/-- Every entry lies in the block of the point its row falls in. -/
theorem cover9 (i : S8192x4096.Idx) :
    ∃ t : Fin cfg0.N, (cfg0.win 9).flush t = true ∧ i ∈ ((cfg0.win 9).blk t).view.set := by
  have hN : cfg0.N = 32 := N_0
  have h0 : (i 0).val < 8192 := (i 0).isLt
  have h1 : (i 1).val < 4096 := (i 1).isLt
  obtain ⟨t, htv⟩ : ∃ t : Fin cfg0.N, t.val = (i 0).val / 256 := ⟨⟨(i 0).val / 256, by omega⟩, rfl⟩
  obtain ⟨-, -, -, -, -, -, -, -, -, -, -, -, -, -, -, -, -, -, e0, e1⟩ := idx_facts t
  refine ⟨t, flush0_9 t, ?_⟩
  rw [mem_blk9]
  intro a
  match a with
  | ⟨0, _⟩ =>
    show win0_9.index t (0 : Fin 2) * 256 ≤ (i 0).val ∧ (i 0).val < win0_9.index t (0 : Fin 2) * 256 + 256
    omega
  | ⟨1, _⟩ =>
    show win0_9.index t (1 : Fin 2) * 4096 ≤ (i 1).val ∧ (i 1).val < win0_9.index t (1 : Fin 2) * 4096 + 4096
    omega

/-! ## The four arrays after the run -/

/-- The first result's array ends holding the sum of the two inputs, row by row. -/
theorem final6 (c : Dev nD) :
    (dats m 0 c).arrAt 6 cfg0.N = sumFlat (V m c main_call0_v0) (V m c main_call0_v1) :=
  (dats m 0 c).arrAt_eq_of_cover 6 _ (fun t _ => flushed6_eq m c t) (fun i => cover6 i)

/-- The second result's array ends holding each row's mean. -/
theorem final7 (c : Dev nD) :
    (dats m 0 c).arrAt 7 cfg0.N = meanFlat (V m c main_call0_v0) (V m c main_call0_v1) :=
  (dats m 0 c).arrAt_eq_of_cover 7 _ (fun t _ => flushed7_eq m c t) (fun i => cover7 i)

/-- The third result's array ends holding each row's reciprocal standard deviation. -/
theorem final8 (c : Dev nD) :
    (dats m 0 c).arrAt 8 cfg0.N = rstdFlat (V m c main_call0_v0) (V m c main_call0_v1) :=
  (dats m 0 c).arrAt_eq_of_cover 8 _ (fun t _ => flushed8_eq m c t) (fun i => cover8 i)

/-- The fourth result's array ends holding each normalised row times the weights, plus the bias. -/
theorem final9 (c : Dev nD) :
    (dats m 0 c).arrAt 9 cfg0.N
      = outFlat (V m c main_call0_v0) (V m c main_call0_v1) (V m c main_call0_v5) (V m c main_call0_v4)
          (V m c main_call0_v2) (V m c main_call0_v3) :=
  (dats m 0 c).arrAt_eq_of_cover 9 _ (fun t _ => flushed9_eq m c t) (fun i => cover9 i)

end Cert.AddNormDense.Blocks

end
-- ==== Proof.LibFlattenRows.lean ====
/-
  Reusable lemmas: the two leading axes of an array merged into one axis of rows, and split again, read at an entry.

  A program that treats a [A, B, C] array as A·B rows of length C reshapes it to [R, C] (R = A·B) on the way in and
  reshapes its [R, C] and [R, 1] results back to [A, B, C] and [A, B] on the way out.  In row-major order row (b, m)
  is row r = b·B + m, so

      merge  [A, B, C] → [R, C]    at (r, n)     is the operand at (b, m, n),
      split  [R, C] → [A, B, C]    at (b, m, n)  is the operand at (r, n),
      split  [R, 1] → [A, B]       at (b, m)     is the operand at (r, 0),

  whenever r = b·B + m.  Generic in the extents and in the element type.
-/
import Idealize.ShloMosaic.Lib.Pipeline.Value
import Idealize.ShloMosaic.Lib.ValueIdx

noncomputable section

namespace Cert.FlattenRows

open Idealize.ShloMosaic Idealize.ShloMosaic.ValueIdx

variable {α : Type} {A B C R : ℕ}

/-- An [A, B, C] array viewed as [R, C] reads, at (r, n) with r = b·B + m, the operand at (b, m, n). -/
theorem merge_apply (x : (⟨3, ![A, B, C]⟩ : Shape).Idx → α) (h : (⟨3, ![A, B, C]⟩ : Shape).ShapeCasts ⟨2, ![R, C]⟩)
    (b : Fin A) (m : Fin B) (n : Fin C) (r : Fin R) (hr : r.val = b.val * B + m.val) :
    shapeCast ⟨2, ![R, C]⟩ x h (ix2 r n) = x (ix3 b m n) :=
  shapeCast_apply x h _ _ (by
    rw [Shape.rowMajor_val_three, Shape.rowMajor_val_two]
    show (b.val * B + m.val) * C + n.val = r.val * C + n.val
    rw [hr])

/-- An [R, C] array viewed as [A, B, C] reads, at (b, m, n), the operand at (r, n) with r = b·B + m. -/
theorem split_apply (x : (⟨2, ![R, C]⟩ : Shape).Idx → α) (h : (⟨2, ![R, C]⟩ : Shape).ShapeCasts ⟨3, ![A, B, C]⟩)
    (b : Fin A) (m : Fin B) (n : Fin C) (r : Fin R) (hr : r.val = b.val * B + m.val) :
    shapeCast ⟨3, ![A, B, C]⟩ x h (ix3 b m n) = x (ix2 r n) :=
  shapeCast_apply x h _ _ (by
    rw [Shape.rowMajor_val_three, Shape.rowMajor_val_two]
    show r.val * C + n.val = (b.val * B + m.val) * C + n.val
    rw [hr])

/-- An [R, 1] column viewed as [A, B] reads, at (b, m), the operand at (r, 0) with r = b·B + m. -/
theorem splitColumn_apply (x : (⟨2, ![R, 1]⟩ : Shape).Idx → α) (h : (⟨2, ![R, 1]⟩ : Shape).ShapeCasts ⟨2, ![A, B]⟩)
    (b : Fin A) (m : Fin B) (r : Fin R) (hr : r.val = b.val * B + m.val) :
    shapeCast ⟨2, ![A, B]⟩ x h (ix2 b m) = x (ix2 r (0 : Fin 1)) :=
  shapeCast_apply x h _ _ (by
    rw [Shape.rowMajor_val_two, Shape.rowMajor_val_two]
    show r.val * 1 + 0 = b.val * B + m.val
    rw [hr, Nat.mul_one, Nat.add_zero])

end Cert.FlattenRows

end
-- ==== Proof.KernelRun.lean ====
/-
  The kernel program's run, read: its four results as functions of its six inputs.

  Before the blocked computation the two [4, 2048, 1024] inputs are laid out as 8192 rows of 1024 (row r = 2048·b + m),
  the scale, shift and bias become one-row matrices and the weights change float format (the identity over the extended
  reals); after it the four results are laid back out as [4, 2048, …].  Row r of the 8192-row layout of x1 + x2 is row
  (b, m) of x1 + x2, so each result is the specification's array over the original inputs.
-/
import proofs.«110921_j36558761623582_2_alg».proof.Proof.KernelBlocks
import proofs.«110921_j36558761623582_2_alg».proof.Proof.LibFlattenRows
import Idealize.ShloMosaic.Lib.ValueLayout

noncomputable section

namespace Cert.AddNormDense.Run

open Cert.KernelIdeal Cert.KernelIdeal.Gen Idealize.ShloMosaic Idealize.ShloMosaic.TcCoe Idealize.SL.Sem
open Idealize.ShloMosaic.ValueIdx Cert.AddNormDense
open Idealize.ShloMosaic.Pipeline (Dat)

variable (m : (ℓ : Loc nD τ sig) → Buf (Elt Ideal) ℓ) (ρ : Dev nD → PrngReg)

/-! ## The arrays the blocked computation finds -/

/-- The first input as 8192 rows. -/
theorem V_x1 (c : Dev nD) : (V m c main_call0_v0 : S8192x1024.Idx → EReal)
    = shapeCast S8192x1024 (m ((c : Thread nD τ).loc main_arg0) : S4x2048x1024.Idx → EReal) shapeCasts_S4x2048x1024_S8192x1024 := by
  show StableHlo.after hostOps0 (fun b => m (c, b)) (Proc.devRef .tc main_call0_v0) = _
  after_results
  rfl

/-- The second input as 8192 rows. -/
theorem V_x2 (c : Dev nD) : (V m c main_call0_v1 : S8192x1024.Idx → EReal)
    = shapeCast S8192x1024 (m ((c : Thread nD τ).loc main_arg1) : S4x2048x1024.Idx → EReal) shapeCasts_S4x2048x1024_S8192x1024 := by
  show StableHlo.after hostOps0 (fun b => m (c, b)) (Proc.devRef .tc main_call0_v1) = _
  after_results
  rfl

/-- The scale as a one-row matrix. -/
theorem V_gamma (c : Dev nD) : (V m c main_call0_v2 : S1x1024.Idx → EReal)
    = shapeCast S1x1024 (m ((c : Thread nD τ).loc main_arg4) : S1024.Idx → EReal) shapeCasts_S1024_S1x1024 := by
  show StableHlo.after hostOps0 (fun b => m (c, b)) (Proc.devRef .tc main_call0_v2) = _
  after_results
  rfl

/-- The shift as a one-row matrix. -/
theorem V_beta (c : Dev nD) : (V m c main_call0_v3 : S1x1024.Idx → EReal)
    = shapeCast S1x1024 (m ((c : Thread nD τ).loc main_arg5) : S1024.Idx → EReal) shapeCasts_S1024_S1x1024 := by
  show StableHlo.after hostOps0 (fun b => m (c, b)) (Proc.devRef .tc main_call0_v3) = _
  after_results
  rfl

/-- The bias as a one-row matrix. -/
theorem V_bias (c : Dev nD) : (V m c main_call0_v4 : S1x4096.Idx → EReal)
    = shapeCast S1x4096 (m ((c : Thread nD τ).loc main_arg3) : S4096.Idx → EReal) shapeCasts_S4096_S1x4096 := by
  show StableHlo.after hostOps0 (fun b => m (c, b)) (Proc.devRef .tc main_call0_v4) = _
  after_results
  rfl

/-- The weights in the narrower float format: over the extended reals, the weights themselves. -/
theorem V_w (c : Dev nD) : (V m c main_call0_v5 : S1024x4096.Idx → EReal)
    = (m ((c : Thread nD τ).loc main_arg2) : S1024x4096.Idx → EReal) := by
  show StableHlo.after hostOps0 (fun b => m (c, b)) (Proc.devRef .tc main_call0_v5) = _
  after_results
  rfl

/-- Row 2048·b + m of the 8192-row layout of the two inputs' sum is row (b, m) of their sum. -/
theorem row2_eq_row3 (c : Dev nD) (b : Fin 4) (mm : Fin 2048) (r : Fin 8192) (hr : r.val = b.val * 2048 + mm.val) :
    row2 (V m c main_call0_v0) (V m c main_call0_v1) r
      = row3 (m ((c : Thread nD τ).loc main_arg0)) (m ((c : Thread nD τ).loc main_arg1)) b mm := by
  funext n
  unfold row2 row3
  rw [V_x1, V_x2]
  exact congrArg₂ (· + ·)
    (Cert.FlattenRows.merge_apply _ shapeCasts_S4x2048x1024_S8192x1024 b mm n r hr)
    (Cert.FlattenRows.merge_apply _ shapeCasts_S4x2048x1024_S8192x1024 b mm n r hr)

/-- The one-row scale at column n is the scale vector at n. -/
theorem gamma_apply (c : Dev nD) (n : Fin 1024) :
    (V m c main_call0_v2 : S1x1024.Idx → EReal) (ix2 (0 : Fin 1) n) = (m ((c : Thread nD τ).loc main_arg4) : S1024.Idx → EReal) (ix1 n) := by
  rw [V_gamma]
  exact shapeCast_a_1a_apply _ shapeCasts_S1024_S1x1024 0 n

/-- The one-row shift at column n is the shift vector at n. -/
theorem beta_apply (c : Dev nD) (n : Fin 1024) :
    (V m c main_call0_v3 : S1x1024.Idx → EReal) (ix2 (0 : Fin 1) n) = (m ((c : Thread nD τ).loc main_arg5) : S1024.Idx → EReal) (ix1 n) := by
  rw [V_beta]
  exact shapeCast_a_1a_apply _ shapeCasts_S1024_S1x1024 0 n

/-- The one-row bias at column q is the bias vector at q. -/
theorem bias_apply (c : Dev nD) (q : Fin 4096) :
    (V m c main_call0_v4 : S1x4096.Idx → EReal) (ix2 (0 : Fin 1) q) = (m ((c : Thread nD τ).loc main_arg3) : S4096.Idx → EReal) (ix1 q) := by
  rw [V_bias]
  exact shapeCast_a_1a_apply _ shapeCasts_S4096_S1x4096 0 q

/-! ## The four arrays the blocked computation leaves, as the later operations find them -/

theorem arr6 (c : Dev nD) :
    (Pipeline.withArrays spec0 c (V0 m c) (fun w => (dats m 0 c).arrAt w cfg0.N) (Proc.devRef .tc main_call0_v6_0) : S8192x1024.Idx → EReal)
      = sumFlat (V m c main_call0_v0) (V m c main_call0_v1) :=
  (Pipeline.withArrays_arr spec0 winFacts0.arr_inj c (V0 m c) (fun w => (dats m 0 c).arrAt w cfg0.N) 6).trans (Blocks.final6 m c)

theorem arr7 (c : Dev nD) :
    (Pipeline.withArrays spec0 c (V0 m c) (fun w => (dats m 0 c).arrAt w cfg0.N) (Proc.devRef .tc main_call0_v6_1) : S8192x1.Idx → EReal)
      = meanFlat (V m c main_call0_v0) (V m c main_call0_v1) :=
  (Pipeline.withArrays_arr spec0 winFacts0.arr_inj c (V0 m c) (fun w => (dats m 0 c).arrAt w cfg0.N) 7).trans (Blocks.final7 m c)

theorem arr8 (c : Dev nD) :
    (Pipeline.withArrays spec0 c (V0 m c) (fun w => (dats m 0 c).arrAt w cfg0.N) (Proc.devRef .tc main_call0_v6_2) : S8192x1.Idx → EReal)
      = rstdFlat (V m c main_call0_v0) (V m c main_call0_v1) :=
  (Pipeline.withArrays_arr spec0 winFacts0.arr_inj c (V0 m c) (fun w => (dats m 0 c).arrAt w cfg0.N) 8).trans (Blocks.final8 m c)

theorem arr9 (c : Dev nD) :
    (Pipeline.withArrays spec0 c (V0 m c) (fun w => (dats m 0 c).arrAt w cfg0.N) (Proc.devRef .tc main_call0_v6_3) : S8192x4096.Idx → EReal)
      = outFlat (V m c main_call0_v0) (V m c main_call0_v1) (V m c main_call0_v5) (V m c main_call0_v4)
          (V m c main_call0_v2) (V m c main_call0_v3) :=
  (Pipeline.withArrays_arr spec0 winFacts0.arr_inj c (V0 m c) (fun w => (dats m 0 c).arrAt w cfg0.N) 9).trans (Blocks.final9 m c)

/-! ## The results laid back out as [4, 2048, …] -/

/-- The first result: the sum of the two inputs. -/
theorem result0 (c : Dev nD) :
    Pipeline.afterTail₀ cfgs (dats m) 0 (V0 m) [hostOps1] c main_v0_0
      = sumArr (m ((c : Thread nD τ).loc main_arg0)) (m ((c : Thread nD τ).loc main_arg1)) := by
  unfold Pipeline.afterTail₀
  show StableHlo.after hostOps1 _ (Proc.devRef .tc main_v0_0) = _
  after_results
  show shapeCast S4x2048x1024 (Pipeline.withArrays spec0 c (V0 m c) (fun w => (dats m 0 c).arrAt w cfg0.N)
    (Proc.devRef .tc main_call0_v6_0) : S8192x1024.Idx → EReal) shapeCasts_S8192x1024_S4x2048x1024 = _
  rw [arr6]
  funext i
  obtain ⟨b, mm, n, rfl⟩ : ∃ (b : Fin 4) (mm : Fin 2048) (n : Fin 1024), i = ix3 b mm n := ⟨i 0, i 1, i 2, eq_ix3 i⟩
  have hb := b.isLt
  have hm := mm.isLt
  refine (Cert.FlattenRows.split_apply _ shapeCasts_S8192x1024_S4x2048x1024 b mm n ⟨b.val * 2048 + mm.val, by omega⟩ rfl).trans ?_
  rw [sumFlat_apply, row2_eq_row3 m c b mm _ rfl]
  rfl

/-- The second result: each row's mean. -/
theorem result1 (c : Dev nD) :
    Pipeline.afterTail₀ cfgs (dats m) 0 (V0 m) [hostOps1] c main_v0_1
      = meanArr (m ((c : Thread nD τ).loc main_arg0)) (m ((c : Thread nD τ).loc main_arg1)) := by
  unfold Pipeline.afterTail₀
  show StableHlo.after hostOps1 _ (Proc.devRef .tc main_v0_1) = _
  after_results
  show shapeCast S4x2048 (Pipeline.withArrays spec0 c (V0 m c) (fun w => (dats m 0 c).arrAt w cfg0.N)
    (Proc.devRef .tc main_call0_v6_1) : S8192x1.Idx → EReal) shapeCasts_S8192x1_S4x2048 = _
  rw [arr7]
  funext i
  obtain ⟨b, mm, rfl⟩ : ∃ (b : Fin 4) (mm : Fin 2048), i = ix2 b mm := ⟨i 0, i 1, eq_ix2 i⟩
  have hb := b.isLt
  have hm := mm.isLt
  refine (Cert.FlattenRows.splitColumn_apply _ shapeCasts_S8192x1_S4x2048 b mm ⟨b.val * 2048 + mm.val, by omega⟩ rfl).trans ?_
  rw [meanFlat_apply, row2_eq_row3 m c b mm _ rfl]
  rfl

/-- The third result: each row's reciprocal standard deviation. -/
theorem result2 (c : Dev nD) :
    Pipeline.afterTail₀ cfgs (dats m) 0 (V0 m) [hostOps1] c main_v0_2
      = rstdArr (m ((c : Thread nD τ).loc main_arg0)) (m ((c : Thread nD τ).loc main_arg1)) := by
  unfold Pipeline.afterTail₀
  show StableHlo.after hostOps1 _ (Proc.devRef .tc main_v0_2) = _
  after_results
  show shapeCast S4x2048 (Pipeline.withArrays spec0 c (V0 m c) (fun w => (dats m 0 c).arrAt w cfg0.N)
    (Proc.devRef .tc main_call0_v6_2) : S8192x1.Idx → EReal) shapeCasts_S8192x1_S4x2048 = _
  rw [arr8]
  funext i
  obtain ⟨b, mm, rfl⟩ : ∃ (b : Fin 4) (mm : Fin 2048), i = ix2 b mm := ⟨i 0, i 1, eq_ix2 i⟩
  have hb := b.isLt
  have hm := mm.isLt
  refine (Cert.FlattenRows.splitColumn_apply _ shapeCasts_S8192x1_S4x2048 b mm ⟨b.val * 2048 + mm.val, by omega⟩ rfl).trans ?_
  rw [rstdFlat_apply, row2_eq_row3 m c b mm _ rfl]
  rfl

/-- The fourth result: each normalised row times the weights, plus the bias. -/
theorem result3 (c : Dev nD) :
    Pipeline.afterTail₀ cfgs (dats m) 0 (V0 m) [hostOps1] c main_v0_3
      = outArr (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  unfold Pipeline.afterTail₀
  show StableHlo.after hostOps1 _ (Proc.devRef .tc main_v0_3) = _
  after_results
  show shapeCast S4x2048x4096 (Pipeline.withArrays spec0 c (V0 m c) (fun w => (dats m 0 c).arrAt w cfg0.N)
    (Proc.devRef .tc main_call0_v6_3) : S8192x4096.Idx → EReal) shapeCasts_S8192x4096_S4x2048x4096 = _
  rw [arr9]
  funext i
  obtain ⟨b, mm, q, rfl⟩ : ∃ (b : Fin 4) (mm : Fin 2048) (q : Fin 4096), i = ix3 b mm q := ⟨i 0, i 1, i 2, eq_ix3 i⟩
  have hb := b.isLt
  have hm := mm.isLt
  refine (Cert.FlattenRows.split_apply _ shapeCasts_S8192x4096_S4x2048x4096 b mm q ⟨b.val * 2048 + mm.val, by omega⟩ rfl).trans ?_
  rw [outFlat_apply, row2_eq_row3 m c b mm _ rfl, outArr_apply]
  simp only [gamma_apply m c, beta_apply m c, bias_apply m c, V_w m c]

/-! ## The run -/

/-- Every weakly fair execution of the kernel program terminates with the four results at the specification's arrays of
    the inputs, and the inputs unchanged. -/
theorem run : θ_run defs (onTc (τ := τ) (main (F := Ideal))) ⟨m, fun _ => 0, ρ⟩ fun r => ∀ c : Dev nD,
      r.2.mem ((c.tc : Thread nD τ).loc main_v0_0) = sumArr (m ((c.tc : Thread nD τ).loc main_arg0)) (m ((c.tc : Thread nD τ).loc main_arg1))
      ∧ r.2.mem ((c.tc : Thread nD τ).loc main_v0_1) = meanArr (m ((c.tc : Thread nD τ).loc main_arg0)) (m ((c.tc : Thread nD τ).loc main_arg1))
      ∧ r.2.mem ((c.tc : Thread nD τ).loc main_v0_2) = rstdArr (m ((c.tc : Thread nD τ).loc main_arg0)) (m ((c.tc : Thread nD τ).loc main_arg1))
      ∧ r.2.mem ((c.tc : Thread nD τ).loc main_v0_3) = outArr (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v0_0 (Pipeline.mem_restRefs_of main_v0_0 (by decide) (by decide))).trans (result0 m c),
      ((h c).2 main_v0_1 (Pipeline.mem_restRefs_of main_v0_1 (by decide) (by decide))).trans (result1 m c),
      ((h c).2 main_v0_2 (Pipeline.mem_restRefs_of main_v0_2 (by decide) (by decide))).trans (result2 m c),
      ((h c).2 main_v0_3 (Pipeline.mem_restRefs_of main_v0_3 (by decide) (by decide))).trans (result3 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.AddNormDense.Run

end
-- ==== Proof.RefIsSpec.lean ====
/-
  The reference program computes the stated mathematics: its four results, as whole arrays, are the four arrays of the
  statement.  Both sides apply the same operations in the same order, so each stage of the program is read at an index
  with literal coordinates and matched with the corresponding function of one row; the only law used is 0 + s = s for
  the initial value of the program's sums.
-/
import proofs.«110921_j36558761623582_2_alg».proof.Proof.Gen.ReferenceIdeal.Read
import proofs.«110921_j36558761623582_2_alg».proof.Proof.Spec
import Idealize.ShloMosaic.PureOps.Ideal.Laws

noncomputable section

namespace Cert.AddNormDense.Ref

open Cert.ReferenceIdeal Cert.ReferenceIdeal.Read Idealize.ShloMosaic Idealize.ShloMosaic.ValueIdx Cert.AddNormDense

/-! ## The index functions at literal coordinates -/

theorem idx1_ix (b : Fin 4) (m : Fin 2048) (k : Fin 1024) : idx_main_v1 (ix2 b m) k = ix3 b m k :=
  funext fun a => Fin.ext (by match a with | ⟨0, _⟩ => rfl | ⟨1, _⟩ => rfl | ⟨2, _⟩ => rfl)

theorem idx8_ix (b : Fin 4) (m : Fin 2048) (k : Fin 1024) : idx_main_v8 (ix2 b m) k = ix3 b m k :=
  funext fun a => Fin.ext (by match a with | ⟨0, _⟩ => rfl | ⟨1, _⟩ => rfl | ⟨2, _⟩ => rfl)

theorem idx45_ix (b : Fin 4) (m : Fin 2048) (n : Fin 1024) : idx_main_v4 (idx_main_v5 (ix3 b m n)) = ix2 b m :=
  funext fun a => Fin.ext (by match a with | ⟨0, _⟩ => rfl | ⟨1, _⟩ => rfl)

theorem idx1415_ix (b : Fin 4) (m : Fin 2048) (n : Fin 1024) : idx_main_v14 (idx_main_v15 (ix3 b m n)) = ix2 b m :=
  funext fun a => Fin.ext (by match a with | ⟨0, _⟩ => rfl | ⟨1, _⟩ => rfl)

theorem idx1718_ix (b : Fin 4) (m : Fin 2048) (n : Fin 1024) : idx_main_v17 (idx_main_v18 (ix3 b m n)) = ix2 b m :=
  funext fun a => Fin.ext (by match a with | ⟨0, _⟩ => rfl | ⟨1, _⟩ => rfl)

theorem idx2021_ix (b : Fin 4) (m : Fin 2048) (n : Fin 1024) : idx_main_v20 (idx_main_v21 (ix3 b m n)) = ix1 n :=
  funext fun a => Fin.ext (by match a with | ⟨0, _⟩ => rfl)

theorem idx2324_ix (b : Fin 4) (m : Fin 2048) (n : Fin 1024) : idx_main_v23 (idx_main_v24 (ix3 b m n)) = ix1 n :=
  funext fun a => Fin.ext (by match a with | ⟨0, _⟩ => rfl)

theorem idx2728_ix (b : Fin 4) (m : Fin 2048) (q : Fin 4096) : idx_main_v27 (idx_main_v28 (ix3 b m q)) = ix1 q :=
  funext fun a => Fin.ext (by match a with | ⟨0, _⟩ => rfl)

theorem lidx26_ix (b : Fin 4) (m : Fin 2048) (q : Fin 4096) (k : Fin 1024) : lidx_main_v26 (ix3 b m q) k = ix3 b m k :=
  funext fun a => Fin.ext (by match a with | ⟨0, _⟩ => rfl | ⟨1, _⟩ => rfl | ⟨2, _⟩ => rfl)

theorem ridx26_ix (b : Fin 4) (m : Fin 2048) (q : Fin 4096) (k : Fin 1024) : ridx_main_v26 (ix3 b m q) k = ix2 k q :=
  funext fun a => Fin.ext (by match a with | ⟨0, _⟩ => rfl | ⟨1, _⟩ => rfl)

/-! ## The stages, one row at a time -/

variable (X1 X2 : S4x2048x1024.Idx → EReal)

/-- The sum of the two inputs, entry by entry. -/
theorem stage_sum (b : Fin 4) (m : Fin 2048) (n : Fin 1024) :
    val_main_v0 (F := Ideal) X1 X2 (ix3 b m n) = row3 X1 X2 b m n := rfl

/-- The mean of a row: the program's sum starts from the zero word, and 0 + s = s. -/
theorem stage_mean (b : Fin 4) (m : Fin 2048) :
    val_main_v3 (F := Ideal) X1 X2 (ix2 b m) = mean (row3 X1 X2 b m) := by
  rw [val_main_v3_apply, val_main_v1_apply, val_main_v2_apply, val_main_cst_apply, val_main_cst_0_apply]
  rw [Ideal.hostDivf_def, Ideal.ofBits_def, Ideal.ofBits_def, Ideal.ofBits_zero_f32, zero_add]
  unfold mean
  refine congrArg (fun s => Ideal.div s nFeat) (Finset.sum_congr rfl fun k _ => ?_)
  rw [idx1_ix]
  exact stage_sum X1 X2 b m k

/-- An entry less its row's mean (the program's first copy). -/
theorem stage_cen (b : Fin 4) (m : Fin 2048) (n : Fin 1024) :
    val_main_v6 (F := Ideal) X1 X2 (ix3 b m n) = cen (row3 X1 X2 b m) n := by
  rw [val_main_v6_apply, val_main_v5_apply, val_main_v4_apply, idx45_ix, stage_mean, stage_sum]
  rfl

/-- An entry less its row's mean (the program's second copy). -/
theorem stage_cen' (b : Fin 4) (m : Fin 2048) (n : Fin 1024) :
    val_main_v16 (F := Ideal) X1 X2 (ix3 b m n) = cen (row3 X1 X2 b m) n := by
  rw [val_main_v16_apply, val_main_v15_apply, val_main_v14_apply, idx1415_ix, stage_mean, stage_sum]
  rfl

/-- The reciprocal standard deviation of a row. -/
theorem stage_rstd (b : Fin 4) (m : Fin 2048) :
    val_main_v13 (F := Ideal) X1 X2 (ix2 b m) = rstd (row3 X1 X2 b m) := by
  rw [val_main_v13_apply, val_main_v12_apply, val_main_v10_apply, val_main_v8_apply, val_main_v9_apply,
    val_main_v11_apply, val_main_cst_1_apply, val_main_cst_2_apply, val_main_cst_3_apply]
  rw [Ideal.hostUnary_rsqrt_def, Ideal.addf_def, Ideal.hostDivf_def, Ideal.ofBits_def, Ideal.ofBits_def,
    Ideal.ofBits_def, Ideal.ofBits_zero_f32, zero_add]
  unfold rstd
  refine congrArg (fun s => Ideal.rsqrt (Ideal.div s nFeat + eps)) (Finset.sum_congr rfl fun k _ => ?_)
  rw [idx8_ix, val_main_v7_apply, stage_cen]
  rfl

variable (Ga Be : S1024.Idx → EReal)

/-- The normalised row, scaled and shifted. -/
theorem stage_ln (b : Fin 4) (m : Fin 2048) (n : Fin 1024) :
    val_main_v25 (F := Ideal) X1 X2 Ga Be (ix3 b m n)
      = normed (row3 X1 X2 b m) (fun n => Ga (ix1 n)) (fun n => Be (ix1 n)) n := by
  rw [val_main_v25_apply, val_main_v22_apply, val_main_v19_apply, val_main_v18_apply, val_main_v17_apply,
    idx1718_ix, val_main_v21_apply, val_main_v20_apply, idx2021_ix, val_main_v24_apply, val_main_v23_apply,
    idx2324_ix, stage_cen', stage_rstd]
  rfl

/-! ## The four results as whole arrays -/

theorem ref_sum (X1 X2 : S4x2048x1024.Idx → EReal) : val_main_v0 (F := Ideal) X1 X2 = sumArr X1 X2 := rfl

theorem ref_mean (X1 X2 : S4x2048x1024.Idx → EReal) : val_main_v3 (F := Ideal) X1 X2 = meanArr X1 X2 := by
  funext j
  obtain ⟨b, m, rfl⟩ : ∃ (b : Fin 4) (m : Fin 2048), j = ix2 b m := ⟨j 0, j 1, eq_ix2 j⟩
  exact stage_mean X1 X2 b m

theorem ref_rstd (X1 X2 : S4x2048x1024.Idx → EReal) : val_main_v13 (F := Ideal) X1 X2 = rstdArr X1 X2 := by
  funext j
  obtain ⟨b, m, rfl⟩ : ∃ (b : Fin 4) (m : Fin 2048), j = ix2 b m := ⟨j 0, j 1, eq_ix2 j⟩
  exact stage_rstd X1 X2 b m

theorem ref_out (X1 X2 : S4x2048x1024.Idx → EReal) (W : S1024x4096.Idx → EReal) (B : S4096.Idx → EReal)
    (Ga Be : S1024.Idx → EReal) :
    val_main_v29 (F := Ideal) X1 X2 W B Ga Be = outArr X1 X2 W B Ga Be := by
  funext i
  obtain ⟨b, m, q, rfl⟩ : ∃ (b : Fin 4) (m : Fin 2048) (q : Fin 4096), i = ix3 b m q := ⟨i 0, i 1, i 2, eq_ix3 i⟩
  rw [val_main_v29_apply, val_main_v26_apply, val_main_v28_apply, val_main_v27_apply, idx2728_ix, outArr_apply]
  unfold dense
  rw [Ideal.addf_def]
  refine congrArg (· + B (ix1 q)) (Finset.sum_congr rfl fun k _ => ?_)
  rw [lidx26_ix, ridx26_ix, stage_ln]

end Cert.AddNormDense.Ref

end
-- ==== Proof.lean ====
/-
  The kernel adds two [4, 2048, 1024] arrays, layer-normalises each row of the sum (mean, centred entries, reciprocal
  standard deviation with the offset ε, scale and shift), multiplies the normalised rows by a [1024, 4096] weight matrix and
  adds a bias; it returns the sum, the row means, the reciprocal standard deviations and the product.  It does so on
  blocks of 256 rows of the 8192-row layout of the inputs, with the matrix product's operands in a narrower float format;
  the reference does it with whole-array operations.

  Over the extended reals both programs apply the same operations in the same order and grouping to each row — a change
  of float format is the identity there, a lane sum and a host sum are the same finite sum (the host's starts from the
  zero word, and 0 + s = s), a matrix product into zeros and a dot product are the same sum over the contracted axis — so
  the two programs' results are equal entry by entry with no algebraic law and no use of the inputs' finiteness:

    * Proof/Spec.lean states the row-wise functions and the four result arrays;
    * Proof/RefIsSpec.lean reads the reference's stages at an entry: they are those arrays;
    * Proof/KernelBody.lean reads what one grid point stores at an entry, Proof/KernelBlocks.lean assembles the 32 blocks
      into the arrays after the run, Proof/KernelRun.lean carries the layout changes before and after and states the run;
    * here the three frames (the kernel programs' are the generated ones, the reference's is its generated run with the
      results dropped), the idealization's ledger (empty) and the equivalence are assembled.
-/
import proofs.«110921_j36558761623582_2_alg».proof.Defs
import proofs.«110921_j36558761623582_2_alg».proof.Proof.Gen.Kernel
import proofs.«110921_j36558761623582_2_alg».proof.Proof.Gen.Kernel.Frame
import proofs.«110921_j36558761623582_2_alg».proof.Proof.Gen.KernelIdeal
import proofs.«110921_j36558761623582_2_alg».proof.Proof.Gen.KernelIdeal.Frame
import proofs.«110921_j36558761623582_2_alg».proof.Proof.Gen.ReferenceIdeal
import proofs.«110921_j36558761623582_2_alg».proof.Proof.Gen.Pre_finite_inputs
import proofs.«110921_j36558761623582_2_alg».proof.Proof.Gen.ReferenceIdeal.Run
import proofs.«110921_j36558761623582_2_alg».proof.Proof.Gen.ReferenceIdeal.Read
import proofs.«110921_j36558761623582_2_alg».proof.Proof.KernelRun
import proofs.«110921_j36558761623582_2_alg».proof.Proof.RefIsSpec
import Idealize.ShloMosaic.Adequacy
import Idealize.ShloMosaic.Init

noncomputable section

namespace Cert.Proof

open Idealize.ShloMosaic Idealize.SL.Sem Cert.AddNormDense

/-- The kernel program runs and leaves its inputs unchanged. -/
theorem frame_kernel : Cert.frame_Kernel := fun m ρ _ => Cert.Kernel.Gen.frame m ρ

/-- The same of the kernel program read over the extended reals. -/
theorem frame_ideal : Cert.frame_KernelIdeal := fun m ρ _ => Cert.KernelIdeal.Gen.frame m ρ

/-- The reference runs and leaves its inputs unchanged: its run, with what it says of the results dropped. -/
theorem frame_reference : Cert.frame_ReferenceIdeal := fun m ρ _ =>
  (θ_run Cert.ReferenceIdeal.defs _ _).mono (fun _ h c => (h c).2.2.2.2) (Cert.ReferenceIdeal.Value.run (F := Ideal) m ρ)

/-- Reading the kernel over the extended reals rewrote no operation. -/
theorem preserves : Cert.preserves_Kernel_KernelIdeal := trivial

/-- From memories that agree on the six inputs both programs end with the specification's four arrays of those inputs. -/
theorem algebraic : Cert.algebraic_KernelIdeal_ReferenceIdeal := by
  intro m ρ m' ρ' _ hagree
  refine ⟨_, _, _, _, Cert.AddNormDense.Run.run m ρ, ?_⟩
  refine (θ_run Cert.ReferenceIdeal.defs _ _).mono (fun _ h c => ?_) (Cert.ReferenceIdeal.Value.run (F := Ideal) m' ρ')
  obtain ⟨h0, h1, h2, h3, hargs⟩ := h c
  obtain ⟨a0, a1, a2, a3, a4, a5⟩ := hagree c
  refine ⟨?_, ?_, ?_, ?_, hargs⟩
  · refine (h0.trans ((Cert.ReferenceIdeal.Read.val_main_v0_eq _ _).trans (Ref.ref_sum _ _))).trans ?_
    rw [a0, a1]
  · refine (h1.trans ((Cert.ReferenceIdeal.Read.val_main_v3_eq _ _).trans (Ref.ref_mean _ _))).trans ?_
    rw [a0, a1]
  · refine (h2.trans ((Cert.ReferenceIdeal.Read.val_main_v13_eq _ _).trans (Ref.ref_rstd _ _))).trans ?_
    rw [a0, a1]
  · refine (h3.trans ((Cert.ReferenceIdeal.Read.val_main_v29_eq _ _ _ _ _ _).trans (Ref.ref_out _ _ _ _ _ _))).trans ?_
    rw [a0, a1, a2, a3, a4, a5]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
